-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x512 : Shape := ⟨3, ![16, 4096, 512]⟩
abbrev S16 : Shape := ⟨1, ![16]⟩
abbrev S64x16 : Shape := ⟨2, ![64, 16]⟩
abbrev S64 : Shape := ⟨1, ![64]⟩
abbrev S512x64 : Shape := ⟨2, ![512, 64]⟩
abbrev S512 : Shape := ⟨1, ![512]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S16 : S_.BroadcastsInDim S16 (![] : Fin 0 → Fin S16.rank)
  reducesTo_S16_S_d0 : S16.ReducesTo [0] S_
  bcast_S_S64x16 : S_.BroadcastsInDim S64x16 (![] : Fin 0 → Fin S64x16.rank)
  reducesTo_S64x16_S_d0_1 : S64x16.ReducesTo [0, 1] S_
  bcast_S_S64 : S_.BroadcastsInDim S64 (![] : Fin 0 → Fin S64.rank)
  reducesTo_S64_S_d0 : S64.ReducesTo [0] S_
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x64 .f32) (main_arg5 : FVec F S512 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S512x64 .f32 := Host.absf main_arg4
  let main_cst_6 : FVec F S_ .f32 := constant S_ .f32 0x7F800000#32
  let main_v20 : FVec F S512x64 .f32 := broadcastInDim S512x64 ![] bcast_S_S512x64 main_cst_6
  let main_v21 : IVec S512x64 1 := cmpf .olt main_v19 main_v20
  let main_c_7 : IVec S_ 1 := constantI S_ 1 1#1
  let main_v22 : IVec S_ 1 := (fun x v => Host.reduce IntOp.andi x v reducesTo_S512x64_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S16x4096x512 .f32) (main_arg1 : FVec F S16 .f32) (main_arg2 : FVec F S64x16 .f32) (main_arg3 : FVec F S64 .f32) (main_arg4 : FVec F S512x64 .f32) (main_arg5 : FVec F S512 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  let main_v9 : FVec F S64x16 .f32 := Host.absf main_arg2
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S16x4096x512 : Shape := ⟨3, ![16, 4096, 512]⟩
abbrev S16 : Shape := ⟨1, ![16]⟩
abbrev S64x16 : Shape := ⟨2, ![64, 16]⟩
abbrev S64 : Shape := ⟨1, ![64]⟩
abbrev S512x64 : Shape := ⟨2, ![512, 64]⟩
abbrev S512 : Shape := ⟨1, ![512]⟩
abbrev S16x4096x16 : Shape := ⟨3, ![16, 4096, 16]⟩
abbrev S65536x16 : Shape := ⟨2, ![65536, 16]⟩
abbrev S1x16 : Shape := ⟨2, ![1, 16]⟩
abbrev S16x64 : Shape := ⟨2, ![16, 64]⟩
abbrev S64x512 : Shape := ⟨2, ![64, 512]⟩
abbrev S65536x512 : Shape := ⟨2, ![65536, 512]⟩
abbrev S8192x16 : Shape := ⟨2, ![8192, 16]⟩
abbrev S8192x512 : Shape := ⟨2, ![8192, 512]⟩
abbrev S8192x64 : Shape := ⟨2, ![8192, 64]⟩
abbrev S1x64 : Shape := ⟨2, ![1, 64]⟩
abbrev S1x512 : Shape := ⟨2, ![1, 512]⟩

abbrev nBuf : Space → Nat
  | .hbm => 16
  | .vmem => 8
  | .smem => 0
  | _ => 0

abbrev bufTy : (tb : Table) → Fin (tcTables nBuf tb) → BufTy
  | .hbm, ⟨0, _⟩ => ⟨S16x4096x512, .f32⟩
  | .hbm, ⟨1, _⟩ => ⟨S16, .f32⟩
  | .hbm, ⟨2, _⟩ => ⟨S64x16, .f32⟩
  | .hbm, ⟨3, _⟩ => ⟨S64, .f32⟩
  | .hbm, ⟨4, _⟩ => ⟨S512x64, .f32⟩
  | .hbm, ⟨5, _⟩ => ⟨S512, .f32⟩
  | .hbm, ⟨6, _⟩ => ⟨S16x4096x16, .f32⟩
  | .hbm, ⟨7, _⟩ => ⟨S65536x16, .f32⟩
  | .hbm, ⟨8, _⟩ => ⟨S16, .f32⟩
  | .hbm, ⟨9, _⟩ => ⟨S1x16, .f32⟩
  | .hbm, ⟨10, _⟩ => ⟨S64x16, .f32⟩
  | .hbm, ⟨11, _⟩ => ⟨S64x16, .f32⟩
  | .hbm, ⟨12, _⟩ => ⟨S16x64, .f32⟩
  | .hbm, ⟨13, _⟩ => ⟨S64x512, .f32⟩
  | .hbm, ⟨14, _⟩ => ⟨S65536x512, .f32⟩
  | .hbm, ⟨15, _⟩ => ⟨S16x4096x512, .f32⟩
  | .local _ .vmem, ⟨0, _⟩ => ⟨S8192x16, .f32⟩
  | .local _ .vmem, ⟨1, _⟩ => ⟨S8192x16, .f32⟩
  | .local _ .vmem, ⟨2, _⟩ => ⟨S16x64, .f32⟩
  | .local _ .vmem, ⟨3, _⟩ => ⟨S64, .f32⟩
  | .local _ .vmem, ⟨4, _⟩ => ⟨S64x512, .f32⟩
  | .local _ .vmem, ⟨5, _⟩ => ⟨S512, .f32⟩
  | .local _ .vmem, ⟨6, _⟩ => ⟨S8192x512, .f32⟩
  | .local _ .vmem, ⟨7, _⟩ => ⟨S8192x512, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S16x4096x512_S16x4096x16_0_0_0 : S16x4096x512.Slices ![0, 0, 0] S16x4096x16
  shapeCasts_S16x4096x16_S65536x16 : S16x4096x16.ShapeCasts S65536x16
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  transposes_S64x16_S16x64_1_0 : S64x16.Transposes [1, 0] S16x64
  transposes_S512x64_S64x512_1_0 : S512x64.Transposes [1, 0] S64x512
  inb_S8192x16_S8192x16_0_0 : ∀ a, (![0, 0] : Fin 2 → Nat) a + S8192x16.size a ≤ S8192x16.size a
  h_S8192x16 : 0 < S8192x16.numel
  shapeCasts_S8192x16_S8192x16 : S8192x16.ShapeCasts S8192x16
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S512_S512_0 : ∀ a, (![0] : Fin 1 → Nat) a + S512.size a ≤ S512.size a
  h_S512 : 0 < S512.numel
  shapeCasts_S512_S1x512 : S512.ShapeCasts S1x512
  broadcasts_S1x512_S8192x512 : S1x512.Broadcasts S8192x512
  inb_S8192x512_S8192x512_0_0 : ∀ a, (![0, 0] : Fin 2 → Nat) a + S8192x512.size a ≤ S8192x512.size a
  h_S8192x512 : 0 < S8192x512.numel
  shapeCasts_S65536x512_S16x4096x512 : S65536x512.ShapeCasts S16x4096x512
  dot_S8192x16_S16x64_S8192x64_1_0_0_1_n_n_wf : DotDims.WF S8192x16 S16x64 S8192x64 [1] [0] [0] [1] [] []
  dot_S8192x64_S64x512_S8192x512_1_0_0_1_n_n_wf : DotDims.WF S8192x64 S64x512 S8192x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x16.size a ≤ S65536x16.size a
  hwx0_0 : ∀ i : grid0.Coords, EltTy.bits .f32 = 32 ∨ (Rect.block (s := S65536x16) S8192x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .f32 = 32 ∨ (Rect.block (s := S64x512) S64x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x512.size a ≤ S65536x512.size a
  hwx0_5 : ∀ i : grid0.Coords, EltTy.bits .f32 = 32 ∨ (Rect.block (s := S65536x512) S8192x512.size (cc0_transform_5 i) (hinb0_5 i)).WholeWords (EltTy.packing .f32)

variable [Facts₀]

def dot_S8192x16_S16x64_S8192x64_1_0_0_1_n_n : DotDims S8192x16 S16x64 S8192x64 where
  lhsContracting := [1]
  rhsContracting := [0]
  lhsNonContracting := [0]
  rhsNonContracting := [1]
  lhsBatch := []
  rhsBatch := []
  wf := dot_S8192x16_S16x64_S8192x64_1_0_0_1_n_n_wf
def dot_S8192x64_S64x512_S8192x512_1_0_0_1_n_n : DotDims S8192x64 S64x512 S8192x512 where
  lhsContracting := [1]
  rhsContracting := [0]
  lhsNonContracting := [0]
  rhsNonContracting := [1]
  lhsBatch := []
  rhsBatch := []
  wf := dot_S8192x64_S64x512_S8192x512_1_0_0_1_n_n_wf

abbrev win0_0 : Pipeline.Window sig grid0 :=
  Pipeline.Window.ofSpec (Memref.whole main_v1) S8192x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S8192x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x4096x512 : Shape := ⟨3, ![16, 4096, 512]⟩
abbrev S16 : Shape := ⟨1, ![16]⟩
abbrev S64x16 : Shape := ⟨2, ![64, 16]⟩
abbrev S64 : Shape := ⟨1, ![64]⟩
abbrev S512x64 : Shape := ⟨2, ![512, 64]⟩
abbrev S512 : Shape := ⟨1, ![512]⟩
abbrev S16x4096x16 : Shape := ⟨3, ![16, 4096, 16]⟩
abbrev S1x1x16 : Shape := ⟨3, ![1, 1, 16]⟩
abbrev S16x4096x64 : Shape := ⟨3, ![16, 4096, 64]⟩
abbrev S1x1x64 : Shape := ⟨3, ![1, 1, 64]⟩
abbrev S_ : Shape := ⟨0, ![]⟩
abbrev S1x1x512 : Shape := ⟨3, ![1, 1, 512]⟩

abbrev nBuf : Space → Nat
  | .hbm => 23
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S16, .f32⟩
  | .hbm, ⟨2, _⟩ => ⟨S64x16, .f32⟩
  | .hbm, ⟨3, _⟩ => ⟨S64, .f32⟩
  | .hbm, ⟨4, _⟩ => ⟨S512x64, .f32⟩
  | .hbm, ⟨5, _⟩ => ⟨S512, .f32⟩
  | .hbm, ⟨6, _⟩ => ⟨S16x4096x16, .f32⟩
  | .hbm, ⟨7, _⟩ => ⟨S16x4096x16, .f32⟩
  | .hbm, ⟨8, _⟩ => ⟨S16, .f32⟩
  | .hbm, ⟨9, _⟩ => ⟨S1x1x16, .f32⟩
  | .hbm, ⟨10, _⟩ => ⟨S16x4096x16, .f32⟩
  | .hbm, ⟨11, _⟩ => ⟨S16x4096x16, .f32⟩
  | .hbm, ⟨12, _⟩ => ⟨S16x4096x64, .f32⟩
  | .hbm, ⟨13, _⟩ => ⟨S1x1x64, .f32⟩
  | .hbm, ⟨14, _⟩ => ⟨S16x4096x64, .f32⟩
  | .hbm, ⟨15, _⟩ => ⟨S16x4096x64, .f32⟩
  | .hbm, ⟨16, _⟩ => ⟨S_, .f32⟩
  | .hbm, ⟨17, _⟩ => ⟨S16x4096x64, .f32⟩
  | .hbm, ⟨18, _⟩ => ⟨S16x4096x64, .f32⟩
  | .hbm, ⟨19, _⟩ => ⟨S16x4096x512, .f32⟩
  | .hbm, ⟨20, _⟩ => ⟨S1x1x512, .f32⟩
  | .hbm, ⟨21, _⟩ => ⟨S16x4096x512, .f32⟩
  | .hbm, ⟨22, _⟩ => ⟨S16x4096x512, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S16x4096x512_S16x4096x16_0_0_0 : S16x4096x512.Slices ![0, 0, 0] S16x4096x16
  bcast_S16_S1x1x16_2 : S16.BroadcastsInDim S1x1x16 (![2] : Fin 1 → Fin S1x1x16.rank)
  bcast_S1x1x16_S16x4096x16_0_1_2 : S1x1x16.BroadcastsInDim S16x4096x16 (![0, 1, 2] : Fin 3 → Fin S16x4096x16.rank)
  bcast_S64_S1x1x64_2 : S64.BroadcastsInDim S1x1x64 (![2] : Fin 1 → Fin S1x1x64.rank)
  bcast_S1x1x64_S16x4096x64_0_1_2 : S1x1x64.BroadcastsInDim S16x4096x64 (![0, 1, 2] : Fin 3 → Fin S16x4096x64.rank)
  bcast_S_S16x4096x64 : S_.BroadcastsInDim S16x4096x64 (![] : Fin 0 → Fin S16x4096x64.rank)
  bcast_S512_S1x1x512_2 : S512.BroadcastsInDim S1x1x512 (![2] : Fin 1 → Fin S1x1x512.rank)
  bcast_S1x1x512_S16x4096x512_0_1_2 : S1x1x512.BroadcastsInDim S16x4096x512 (![0, 1, 2] : Fin 3 → Fin S16x4096x512.rank)
  dot_S16x4096x16_S64x16_S16x4096x64_2_1_01_0_n_n_wf : DotDims.WF S16x4096x16 S64x16 S16x4096x64 [2] [1] [0, 1] [0] [] []
  dot_S16x4096x64_S512x64_S16x4096x512_2_1_01_0_n_n_wf : DotDims.WF S16x4096x64 S512x64 S16x4096x512 [2] [1] [0, 1] [0] [] []

variable [Facts₀]

def dot_S16x4096x16_S64x16_S16x4096x64_2_1_01_0_n_n : DotDims S16x4096x16 S64x16 S16x4096x64 where
  lhsContracting := [2]
  rhsContracting := [1]
  lhsNonContracting := [0, 1]
  rhsNonContracting := [0]
  lhsBatch := []
  rhsBatch := []
  wf := dot_S16x4096x16_S64x16_S16x4096x64_2_1_01_0_n_n_wf
def dot_S16x4096x64_S512x64_S16x4096x512_2_1_01_0_n_n : DotDims S16x4096x64 S512x64 S16x4096x512 where
  lhsContracting := [2]
  rhsContracting := [1]
  lhsNonContracting := [0, 1]
  rhsNonContracting := [0]
  lhsBatch := []
  rhsBatch := []
  wf := dot_S16x4096x64_S512x64_S16x4096x512_2_1_01_0_n_n_wf

class Facts : Prop extends Facts₀ where

variable [Facts]
-- ==== Proof.FfnSpec.lean ====
/-
  The function both programs compute, written once over the extended reals.

  A token is a row of 512 features. Only its first 16 features are used: feature q gives the "qubit expectation"
  cos x_q · cos θ_q. A first affine layer W1 (64 × 16) with bias b1, a rectifier (maximum with zero) and a second affine
  layer W2 (512 × 64) with bias b2 follow:

      out(b, s, e) = Σ_f max( Σ_q (cos x(b, s, q) · cos θ_q) · W1(f, q) + b1_f , 0 ) · W2(e, f) + b2_e .

  `rows` is the same two-layer map on a matrix of M rows of 16 already-extracted features, with the first weight
  matrix given transposed and pre-scaled (A = 16 × 64) and the second transposed (B = 64 × 512); the cosine of the
  features is taken inside. `rows_eq_ffn` joins the two: when the rows are the tokens in row-major order, A(q, f) =
  W1(f, q) · cos θ_q and B(f, e) = W2(e, f), a row's result is the token's. The only law used is that multiplication
  of extended reals is commutative and associative, which holds at the infinities too, so no finiteness is needed.
-/
import Idealize.ShloMosaic.Lib.ValueIdx
import Idealize.ShloMosaic.PureOps.Ideal

noncomputable section

open scoped BigOperators

namespace Cert.Ffn

open Idealize.ShloMosaic Idealize.ShloMosaic.ValueIdx

/-- The rectifier's threshold: the f32 word of +0.0 read as an extended real. -/
abbrev zeroWord : EReal := Ideal.ofBits .f32 0x00000000#32

/-- The two-layer map on M rows of 16 features: cosine, 16 → 64 affine, rectifier, 64 → 512 affine. -/
def rows {M : Nat} (X : (⟨2, ![M, 16]⟩ : Shape).Idx → EReal) (A : (⟨2, ![16, 64]⟩ : Shape).Idx → EReal)
    (b1 : (⟨1, ![64]⟩ : Shape).Idx → EReal) (B : (⟨2, ![64, 512]⟩ : Shape).Idx → EReal)
    (b2 : (⟨1, ![512]⟩ : Shape).Idx → EReal) : (⟨2, ![M, 512]⟩ : Shape).Idx → EReal := fun j =>
  (∑ f : Fin 64, max ((∑ q : Fin 16, Ideal.cos (X (ix2 (j 0) q)) * A (ix2 q f)) + b1 (ix1 f)) zeroWord * B (ix2 f (j 1)))
    + b2 (ix1 (j 1))

/-- A block of rows computes what the whole matrix computes on those rows: if row `j 0` of the block `Xb` is row `i 0` of
    `X`, the column is the same and the weights and biases are the same, the two results agree. -/
theorem rows_congr {Mb M : Nat} (Xb : (⟨2, ![Mb, 16]⟩ : Shape).Idx → EReal) (X : (⟨2, ![M, 16]⟩ : Shape).Idx → EReal)
    (Ab A : (⟨2, ![16, 64]⟩ : Shape).Idx → EReal) (cb c1 : (⟨1, ![64]⟩ : Shape).Idx → EReal)
    (Bb B : (⟨2, ![64, 512]⟩ : Shape).Idx → EReal) (db d2 : (⟨1, ![512]⟩ : Shape).Idx → EReal)
    (j : (⟨2, ![Mb, 512]⟩ : Shape).Idx) (i : (⟨2, ![M, 512]⟩ : Shape).Idx)
    (hX : ∀ q : Fin 16, Xb (ix2 (j 0) q) = X (ix2 (i 0) q)) (hA : Ab = A) (hc : cb = c1) (hB : Bb = B) (hd : db = d2)
    (hcol : (j 1).val = (i 1).val) : rows Xb Ab cb Bb db j = rows X A c1 B d2 i := by
  subst hA hc hB hd
  have hcol' : j 1 = i 1 := Fin.ext hcol
  unfold rows
  rw [hcol']
  refine congrArg (· + db (ix1 (i 1))) (Finset.sum_congr rfl fun f _ => ?_)
  refine congrArg (fun t => max (t + cb (ix1 f)) zeroWord * Bb (ix2 f (i 1))) (Finset.sum_congr rfl fun q _ => ?_)
  rw [hX q]

/-- Feature q of a token, as a feature index of the 512-wide row. -/
abbrev feat (q : Fin 16) : Fin 512 := ⟨q.val, by have := q.isLt; omega⟩

/-- The whole network on the [16, 4096, 512] input, token by token. -/
def ffn (x : (⟨3, ![16, 4096, 512]⟩ : Shape).Idx → EReal) (θ : (⟨1, ![16]⟩ : Shape).Idx → EReal)
    (W1 : (⟨2, ![64, 16]⟩ : Shape).Idx → EReal) (b1 : (⟨1, ![64]⟩ : Shape).Idx → EReal)
    (W2 : (⟨2, ![512, 64]⟩ : Shape).Idx → EReal) (b2 : (⟨1, ![512]⟩ : Shape).Idx → EReal) :
    (⟨3, ![16, 4096, 512]⟩ : Shape).Idx → EReal := fun i =>
  (∑ f : Fin 64, max ((∑ q : Fin 16, (Ideal.cos (x (ix3 (i 0) (i 1) (feat q))) * Ideal.cos (θ (ix1 q))) * W1 (ix2 f q))
      + b1 (ix1 f)) zeroWord * W2 (ix2 (i 2) f)) + b2 (ix1 (i 2))

/-- Token (b, s) is row b · 4096 + s of the flattened 65536-row matrix. -/
abbrev tokenRow (b : Fin 16) (s : Fin 4096) : Fin 65536 := ⟨b.val * 4096 + s.val, by have := b.isLt; have := s.isLt; omega⟩

/-- A row's result is its token's: the scale cos θ_q folded into the first weight matrix moves next to cos x_q by
    commutativity and associativity of the product. -/
theorem rows_eq_ffn (X : (⟨2, ![65536, 16]⟩ : Shape).Idx → EReal) (A : (⟨2, ![16, 64]⟩ : Shape).Idx → EReal)
    (B : (⟨2, ![64, 512]⟩ : Shape).Idx → EReal)
    (x : (⟨3, ![16, 4096, 512]⟩ : Shape).Idx → EReal) (θ : (⟨1, ![16]⟩ : Shape).Idx → EReal)
    (W1 : (⟨2, ![64, 16]⟩ : Shape).Idx → EReal) (b1 : (⟨1, ![64]⟩ : Shape).Idx → EReal)
    (W2 : (⟨2, ![512, 64]⟩ : Shape).Idx → EReal) (b2 : (⟨1, ![512]⟩ : Shape).Idx → EReal)
    (hX : ∀ (b : Fin 16) (s : Fin 4096) (q : Fin 16), X (ix2 (tokenRow b s) q) = x (ix3 b s (feat q)))
    (hA : ∀ (q : Fin 16) (f : Fin 64), A (ix2 q f) = W1 (ix2 f q) * Ideal.cos (θ (ix1 q)))
    (hB : ∀ (f : Fin 64) (e : Fin 512), B (ix2 f e) = W2 (ix2 e f))
    (b : Fin 16) (s : Fin 4096) (e : Fin 512) :
    rows X A b1 B b2 (ix2 (tokenRow b s) e) = ffn x θ W1 b1 W2 b2 (ix3 b s e) := by
  unfold rows ffn
  show (∑ f : Fin 64, max ((∑ q : Fin 16, Ideal.cos (X (ix2 (tokenRow b s) q)) * A (ix2 q f)) + b1 (ix1 f)) zeroWord * B (ix2 f e))
      + b2 (ix1 e)
    = (∑ f : Fin 64, max ((∑ q : Fin 16, (Ideal.cos (x (ix3 b s (feat q))) * Ideal.cos (θ (ix1 q))) * W1 (ix2 f q))
      + b1 (ix1 f)) zeroWord * W2 (ix2 e f)) + b2 (ix1 e)
  refine congrArg (· + b2 (ix1 e)) (Finset.sum_congr rfl fun f _ => ?_)
  rw [hB f e]
  refine congrArg (fun t => max (t + b1 (ix1 f)) zeroWord * W2 (ix2 e f)) (Finset.sum_congr rfl fun q _ => ?_)
  rw [hX b s q, hA q f, mul_comm (W1 (ix2 f q)) (Ideal.cos (θ (ix1 q))), mul_assoc]

end Cert.Ffn

end
-- ==== Proof.LibMatmul.lean ====
/-
  A plain M × K by K × N matrix product into a zero accumulator, read at one entry: at the exact (extended real) values the
  entry (a, b) is the sum over the contracted coordinate c of A (a, c) · B (c, b) — no rounding and no chunk order left in it.
-/
import Idealize.ShloMosaic.Lib.ValueIdx
import Idealize.ShloMosaic.PureOps.Ideal.Laws

noncomputable section

open scoped BigOperators

namespace Cert.LibMatmul

open Idealize.ShloMosaic Idealize.ShloMosaic.ValueIdx

/-- The product of an `M × K` by a `K × N` matrix accumulated into the zero splat, at entry `(a, b)`, is
    `∑ c, A (a, c) · B (c, b)` over the extended reals. -/
theorem matmul_plain_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant (F := Ideal) ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.LibMatmul

end
-- ==== Proof.LibRows.lean ====
/-
  General facts about arrays of extended reals read at an entry, used by the layer and head lemmas:
  a host matrix product M × K by K × N at entry (a, b) is the sum over c of A (a, c) · B (c, b) (the same sum a
  matmul into the zero accumulator gives); a length-N vector laid out as one row and repeated down M rows reads,
  at (a, b), the vector at b; a length-M vector laid out as one column and repeated across N columns reads the
  vector at a; a scalar repeated over any shape reads the scalar; and a sum over 192 terms is the sum of its
  three consecutive runs of 64.
-/
import Idealize.ShloMosaic.Lib.ValueIdx
import Idealize.ShloMosaic.Lib.ValueLayout
import Idealize.ShloMosaic.Lib.Pipeline.Value
import Idealize.ShloMosaic.PureOps.Ideal.Laws
import proofs.«168409_j65481071405813_2_alg».proof.Proof.LibMatmul

noncomputable section

open scoped BigOperators

namespace Cert.LibRows

open Idealize.ShloMosaic Idealize.ShloMosaic.ValueIdx

/-- The contraction sum of a plain M × K by K × N product at entry `(a, b)`, re-indexed by the contracted
    coordinate: `∑ c, A (a, c) · B (c, b)`. -/
theorem plain_contr_sum {M K N : Nat} {φ₁ φ₂ : FTy}
    (A : FVec Ideal ⟨2, ![M, K]⟩ φ₁) (B : FVec Ideal ⟨2, ![K, N]⟩ φ₂) (a : Fin M) (b : Fin N) :
    (∑ k : (DotDims.plain M K N).contr.Idx,
        A ((DotDims.plain M K N).lhsIdx (ix2 a b) k) * B ((DotDims.plain M K N).rhsIdx (ix2 a b) k))
      = ∑ c : Fin K, A (ix2 a c) * B (ix2 c b) :=
  (Ideal.matmul_constant_zero_apply (DotDims.plain M K N) none A B (ix2 a b)).symm.trans
    (Cert.LibMatmul.matmul_plain_zero_apply none A B a b)

/-- A host `dot_general` of an M × K by a K × N matrix, at the exact values and at entry `(a, b)`, is
    `∑ c, A (a, c) · B (c, b)`. -/
theorem dotGeneral_plain_apply {M K N : Nat} {φ₁ φ₂ : FTy} (prec : Option ContractPrecision) (sched : HostSchedule)
    (A : FVec Ideal ⟨2, ![M, K]⟩ φ₁) (B : FVec Ideal ⟨2, ![K, N]⟩ φ₂) (a : Fin M) (b : Fin N) :
    FloatOps.dotGeneral (DotDims.plain M K N) prec sched A B (ix2 a b) = ∑ c : Fin K, A (ix2 a c) * B (ix2 c b) :=
  (Ideal.dotGeneral_apply (DotDims.plain M K N) prec sched A B (ix2 a b)).trans (plain_contr_sum A B a b)

variable {α : Type}

/-- A vector of length N cast to one row and repeated down M rows: entry `(a, b)` is the vector's entry `b`. -/
theorem rowBroadcastTo_apply {M N : Nat} (v : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (a : Fin M) (b : Fin N) :
    broadcastTo ⟨2, ![M, N]⟩ (shapeCast ⟨2, ![1, N]⟩ v h1) h2 (ix2 a b) = v (ix1 b) := by
  rw [broadcastTo_apply _ h2 (ix2 a b) (ix2 (0 : Fin 1) b) (fun c => by
    match c with
    | ⟨0, _⟩ => show (0 : Nat) = if (1 : Nat) = 1 then 0 else _; rw [if_pos rfl]
    | ⟨1, _⟩ =>
      show b.val = if N = 1 then 0 else b.val
      split
      · have := b.isLt; omega
      · rfl)]
  exact shapeCast_a_1a_apply v h1 0 b

/-- The host form of the same: a vector placed along axis 1 of a 1 × N array, then along both axes of an M × N one. -/
theorem rowBroadcastInDim_apply {M N : Nat} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (a : Fin M) (b : Fin N) :
    broadcastInDim ⟨2, ![M, N]⟩ ![0, 1] h2 (broadcastInDim ⟨2, ![1, N]⟩ ![1] h1 v) (ix2 a b) = v (ix1 b) := by
  rw [broadcastInDim_apply ![0, 1] h2 _ (ix2 a b) (ix2 (0 : Fin 1) b) (fun c => by
    match c with
    | ⟨0, _⟩ => show (0 : Nat) = if (1 : Nat) = 1 then 0 else _; rw [if_pos rfl]
    | ⟨1, _⟩ =>
      show b.val = if N = 1 then 0 else b.val
      split
      · have := b.isLt; omega
      · rfl)]
  exact broadcastInDim_apply ![1] h1 v (ix2 (0 : Fin 1) b) (ix1 b) (fun c => by
    match c with
    | ⟨0, _⟩ =>
      show b.val = if N = 1 then 0 else b.val
      split
      · have := b.isLt; omega
      · rfl)

/-- A vector of length M cast to one column and repeated across N columns: entry `(a, b)` is the vector's entry `a`. -/
theorem colBroadcastTo_apply {M N : Nat} (v : (⟨1, ![M]⟩ : Shape).Idx → α)
    (h1 : (⟨1, ![M]⟩ : Shape).ShapeCasts ⟨2, ![M, 1]⟩) (h2 : (⟨2, ![M, 1]⟩ : Shape).Broadcasts ⟨2, ![M, N]⟩)
    (a : Fin M) (b : Fin N) :
    broadcastTo ⟨2, ![M, N]⟩ (shapeCast ⟨2, ![M, 1]⟩ v h1) h2 (ix2 a b) = v (ix1 a) := by
  rw [broadcastTo_apply _ h2 (ix2 a b) (ix2 a (0 : Fin 1)) (fun c => by
    match c with
    | ⟨0, _⟩ =>
      show a.val = if M = 1 then 0 else a.val
      split
      · have := a.isLt; omega
      · rfl
    | ⟨1, _⟩ => show (0 : Nat) = if (1 : Nat) = 1 then 0 else _; rw [if_pos rfl])]
  exact shapeCast_apply v h1 _ _ (by
    rw [Shape.rowMajor_val_two, Shape.rowMajor_val_one]
    show a.val = a.val * 1 + 0
    omega)

/-- The host form: a vector placed along axis 0 of an M × 1 array, then along both axes of an M × N one. -/
theorem colBroadcastInDim_apply {M N : Nat} (v : (⟨1, ![M]⟩ : Shape).Idx → α)
    (h1 : (⟨1, ![M]⟩ : Shape).BroadcastsInDim ⟨2, ![M, 1]⟩ ![0])
    (h2 : (⟨2, ![M, 1]⟩ : Shape).BroadcastsInDim ⟨2, ![M, N]⟩ ![0, 1]) (a : Fin M) (b : Fin N) :
    broadcastInDim ⟨2, ![M, N]⟩ ![0, 1] h2 (broadcastInDim ⟨2, ![M, 1]⟩ ![0] h1 v) (ix2 a b) = v (ix1 a) := by
  rw [broadcastInDim_apply ![0, 1] h2 _ (ix2 a b) (ix2 a (0 : Fin 1)) (fun c => by
    match c with
    | ⟨0, _⟩ =>
      show a.val = if M = 1 then 0 else a.val
      split
      · have := a.isLt; omega
      · rfl
    | ⟨1, _⟩ => show (0 : Nat) = if (1 : Nat) = 1 then 0 else _; rw [if_pos rfl])]
  exact broadcastInDim_apply ![0] h1 v (ix2 a (0 : Fin 1)) (ix1 a) (fun c => by
    match c with
    | ⟨0, _⟩ =>
      show a.val = if M = 1 then 0 else a.val
      split
      · have := a.isLt; omega
      · rfl)

/-- A scalar placed along no axis of any shape reads the scalar everywhere. -/
theorem splatInDim_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 (fun c => c.elim0)

/-- Putting coordinate `k` back on axis 1 of a row index `g` gives the entry `(g, k)`. -/
theorem lift_axis1 {m n : Nat} (h : (⟨2, ![m, n]⟩ : Shape).Reduces [1] (⟨1, ![m]⟩ : Shape)) (g : Fin m)
    (k : Fin ((⟨2, ![m, n]⟩ : Shape).size 1)) : h.lift (ix1 g) k = ix2 g (⟨k.val, k.isLt⟩ : Fin n) := by
  funext c; apply Fin.ext
  fin_cases c <;> rfl

/-- A sum of 192 terms is the sum of its three consecutive runs of 64 terms. -/
theorem sum_192_split {M : Type*} [AddCommMonoid M] (f : Fin 192 → M) :
    ∑ k : Fin 192, f k
      = (∑ k : Fin 64, f ⟨k.val, by omega⟩) + (∑ k : Fin 64, f ⟨64 + k.val, by omega⟩)
        + ∑ k : Fin 64, f ⟨128 + k.val, by omega⟩ := by
  have e : ∑ k : Fin 192, f k = ∑ k : Fin (64 + 64 + 64), f (k.cast (by norm_num)) := by
    exact (Fin.castOrderIso (by norm_num : 64 + 64 + 64 = 192)).toEquiv.sum_comp f |>.symm
  rw [e, Fin.sum_univ_add, Fin.sum_univ_add]
  rfl

end Cert.LibRows

end
-- ==== Proof.FfnPayload.lean ====
/-
  What the kernel body stores for one block of 8192 token rows, read entry by entry.

  The body takes the cosine of the 8192 × 16 block of features, multiplies by the 16 × 64 first-layer matrix into a
  zero accumulator, adds the first bias repeated down the rows, takes the maximum with zero, multiplies by the 64 × 512
  second-layer matrix into a zero accumulator and adds the second bias repeated down the rows. At the exact values a
  product into the zero accumulator is the plain sum over the contracted coordinate, so entry (r, e) of what is stored is
  `Cert.Ffn.rows` of the five loaded blocks at (r, e).
-/
import proofs.«168409_j65481071405813_2_alg».proof.Proof.Gen.KernelIdeal.Skeleton
import proofs.«168409_j65481071405813_2_alg».proof.Proof.FfnSpec
import proofs.«168409_j65481071405813_2_alg».proof.Proof.LibMatmul
import proofs.«168409_j65481071405813_2_alg».proof.Proof.LibRows

noncomputable section

open scoped BigOperators

namespace Cert.Ffn

open Idealize.ShloMosaic Idealize.ShloMosaic.ValueIdx Cert.KernelIdeal Cert.KernelIdeal.Gen

/-- The two printed contraction records are the plain row-by-column ones. -/
theorem dot1_plain : dot_S8192x16_S16x64_S8192x64_1_0_0_1_n_n = DotDims.plain 8192 16 64 := rfl
theorem dot2_plain : dot_S8192x64_S64x512_S8192x512_1_0_0_1_n_n = DotDims.plain 8192 64 512 := rfl

/-- The hidden layer of a block: entry (r, f) is max(Σ_q cos x(r, q) · A(q, f) + b1_f, 0). -/
theorem hidden_apply (x0 : FVec Ideal S8192x16 .f32) (x3 : FVec Ideal S16x64 .f32) (x5 : FVec Ideal S64 .f32)
    (r : Fin 8192) (f : Fin 64) :
    maximumf (addf (matmul dot_S8192x16_S16x64_S8192x64_1_0_0_1_n_n none
        (cos (shapeCast S8192x16 x0 Facts₀.shapeCasts_S8192x16_S8192x16)) (shapeCast S16x64 x3 Facts₀.shapeCasts_S16x64_S16x64)
        (constant (F := Ideal) S8192x64 .f32 0x00000000#32))
      (broadcastTo S8192x64 (shapeCast S1x64 x5 Facts₀.shapeCasts_S64_S1x64) Facts₀.broadcasts_S1x64_S8192x64))
      (broadcast S8192x64 (Scalar.ofBits (F := Ideal) .f32 0x00000000#32)) (ix2 r f)
    = max ((∑ q : Fin 16, Ideal.cos (x0 (ix2 r q)) * x3 (ix2 q f)) + x5 (ix1 f)) zeroWord := by
  rw [maximumf_apply, addf_apply, broadcast_apply, shapeCast_self, shapeCast_self,
    Cert.LibRows.rowBroadcastTo_apply, dot1_plain]
  simp only [matmul]
  rw [Cert.LibMatmul.matmul_plain_zero_apply]
  rfl

/-- What the body stores, entry by entry: the two-layer map of the loaded blocks. -/
theorem pay_eq_rows (x0 : FVec Ideal S8192x16 .f32) (x3 : FVec Ideal S16x64 .f32) (x5 : FVec Ideal S64 .f32)
    (x12 : FVec Ideal S64x512 .f32) (x14 : FVec Ideal S512 .f32) :
    k0_pay1 (F := Ideal) x0 x3 x5 x12 x14 = rows x0 x3 x5 x12 x14 := by
  funext j
  obtain ⟨r, e, rfl⟩ : ∃ (r : Fin 8192) (e : Fin 512), j = ix2 r e := ⟨j 0, j 1, eq_ix2 j⟩
  unfold k0_pay1 rows
  rw [addf_apply, shapeCast_self x12, Cert.LibRows.rowBroadcastTo_apply, dot2_plain]
  simp only [matmul]
  rw [Cert.LibMatmul.matmul_plain_zero_apply]
  refine congrArg (· + x14 (ix1 e)) (Finset.sum_congr rfl fun f _ => ?_)
  exact congrArg (· * x12 (ix2 f e)) (hidden_apply x0 x3 x5 r f)

end Cert.Ffn

end
-- ==== Proof.FfnBlocks.lean ====
/-
  From the blocks the grid points write back to the whole 65536 × 512 array the region leaves.

  The grid has eight points. Point t reads rows 8192·t … 8192·t + 8191 of the flattened features, the whole of the two
  weight matrices and the two biases, and writes rows 8192·t … 8192·t + 8191 of the output. What it writes is the
  two-layer map of its block of rows (the payload module), and the two-layer map of a block of rows is the same rows of
  the two-layer map of the whole matrix, because an output row depends on its own input row only. Row r of the output
  belongs to point r / 8192, so the eight blocks cover the array and the array ends as the two-layer map of the arrays
  the region was launched on.
-/
import proofs.«168409_j65481071405813_2_alg».proof.Proof.Gen.KernelIdeal.Frame
import proofs.«168409_j65481071405813_2_alg».proof.Proof.FfnPayload
import Idealize.ShloMosaic.Lib.Pipeline.Value

set_option maxRecDepth 16384

noncomputable section

namespace Cert.Ffn

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the grid: the features' block and the output's block of point t are block t along the
    rows; every other window is its whole array at every point. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The two-layer map of the arrays the region is launched on: what the output array ends holding. -/
abbrev regionOut (c : Dev nD) : S65536x512.Idx → EReal :=
  rows (V m c main_v1) (V m c main_v6) (V m c main_arg3) (V m c main_v7) (V m c main_arg5)

/-- What point t writes back is block t of `regionOut`. -/
theorem flushed_eq (c : Dev nD) (t : Fin cfg0.N) :
    (dats m 0 c).flushed 5 t = ((cfg0.win 5).blk t).view.read (Elt Ideal) (regionOut m c) := by
  show (cfg0.win 5).cut (grid0.coords t) ((dats m 0 c).after 5 t) = _
  rw [after0_5]
  unfold out0_5
  rw [View.canon_unit_zero zeros2]
  simp only [View.ld_unit_zero (S := S8192x16) zeros2, View.ld_unit_zero (S := S16x64) zeros2,
    View.ld_unit_zero (S := S64) zeros1, View.ld_unit_zero (S := S64x512) zeros2, View.ld_unit_zero (S := S512) zeros1]
  rw [pay_eq_rows]
  obtain ⟨e00, e01, e10, e11, e20, e30, e31, e40, e50, e51⟩ := block_indices t
  funext j
  show rows (iblk m c 0 t) (iblk m c 1 t) (iblk m c 2 t) (iblk m c 3 t) (iblk m c 4 t) j
    = rows (V m c main_v1) (V m c main_v6) (V m c main_arg3) (V m c main_v7) (V m c main_arg5) (((cfg0.win 5).blk t).view.emb j)
  refine rows_congr _ _ _ _ _ _ _ _ _ _ j (((cfg0.win 5).blk t).view.emb j) (fun q => ?_) ?_ ?_ ?_ ?_ ?_
  · -- the features: row `j 0` of block t is row 8192·t + `j 0` of the array
    show V m c main_v1 (((cfg0.win 0).blk t).view.emb (ix2 (j 0) q)) = V m c main_v1 (ix2 ((((cfg0.win 5).blk t).view.emb j) 0) q)
    refine congrArg (V m c main_v1) (funext fun a => Fin.ext ?_)
    match a with
    | ⟨0, _⟩ => show win0_0.index t (0 : Fin 2) * 8192 + 1 * (j 0).val = win0_5.index t (0 : Fin 2) * 8192 + 1 * (j 0).val; omega
    | ⟨1, _⟩ => show win0_0.index t (1 : Fin 2) * 16 + 1 * q.val = q.val; omega
  · funext y
    show V m c main_v6 (((cfg0.win 1).blk t).view.emb y) = V m c main_v6 y
    refine congrArg (V m c main_v6) (funext fun a => Fin.ext ?_)
    match a with
    | ⟨0, _⟩ => show win0_1.index t (0 : Fin 2) * 16 + 1 * (y 0).val = (y 0).val; omega
    | ⟨1, _⟩ => show win0_1.index t (1 : Fin 2) * 64 + 1 * (y 1).val = (y 1).val; omega
  · funext y
    show V m c main_arg3 (((cfg0.win 2).blk t).view.emb y) = V m c main_arg3 y
    refine congrArg (V m c main_arg3) (funext fun a => Fin.ext ?_)
    match a with
    | ⟨0, _⟩ => show win0_2.index t (0 : Fin 1) * 64 + 1 * (y 0).val = (y 0).val; omega
  · funext y
    show V m c main_v7 (((cfg0.win 3).blk t).view.emb y) = V m c main_v7 y
    refine congrArg (V m c main_v7) (funext fun a => Fin.ext ?_)
    match a with
    | ⟨0, _⟩ => show win0_3.index t (0 : Fin 2) * 64 + 1 * (y 0).val = (y 0).val; omega
    | ⟨1, _⟩ => show win0_3.index t (1 : Fin 2) * 512 + 1 * (y 1).val = (y 1).val; omega
  · funext y
    show V m c main_arg5 (((cfg0.win 4).blk t).view.emb y) = V m c main_arg5 y
    refine congrArg (V m c main_arg5) (funext fun a => Fin.ext ?_)
    match a with
    | ⟨0, _⟩ => show win0_4.index t (0 : Fin 1) * 512 + 1 * (y 0).val = (y 0).val; omega
  · show (j 1).val = win0_5.index t (1 : Fin 2) * 512 + 1 * (j 1).val
    omega

/-- An index of the output array is in point t's block iff each coordinate is in the block's range on its axis. -/
theorem mem_block (t : Fin cfg0.N) (i : S65536x512.Idx) :
    i ∈ ((cfg0.win 5).blk t).view.set ↔ ∀ a : Fin 2, win0_5.index t a * S8192x512.size a ≤ (i a).val ∧ (i a).val < win0_5.index t a * S8192x512.size a + S8192x512.size a := by
  show i ∈ ((View.whole main_v8).slice (win0_5.rect t)).set ↔ _
  rw [View.set_slice_whole, Rect.mem_set_unit]
  exact Iff.rfl

/-- Every entry of the output array is written by some point: row r by point r / 8192. -/
theorem covered (i : S65536x512.Idx) :
    ∃ t : Fin cfg0.N, (cfg0.win 5).flush t = true ∧ i ∈ ((cfg0.win 5).blk t).view.set := by
  have hi0 : (i 0).val < 65536 := (i 0).isLt
  have hi1 : (i 1).val < 512 := (i 1).isLt
  let t : Fin cfg0.N := ⟨(i 0).val / 8192, by rw [show cfg0.N = 8 from N_0]; omega⟩
  obtain ⟨-, -, -, -, -, -, -, -, e50, e51⟩ := block_indices t
  have ht : t.val = (i 0).val / 8192 := rfl
  refine ⟨t, flush0_5 t, ?_⟩
  rw [mem_block]
  intro a
  match a with
  | ⟨0, _⟩ => show win0_5.index t (0 : Fin 2) * 8192 ≤ (i 0).val ∧ (i 0).val < win0_5.index t (0 : Fin 2) * 8192 + 8192; omega
  | ⟨1, _⟩ => show win0_5.index t (1 : Fin 2) * 512 ≤ (i 1).val ∧ (i 1).val < win0_5.index t (1 : Fin 2) * 512 + 512; omega

/-- The output array after the region: the two-layer map of the arrays the region was launched on. -/
theorem region_final (c : Dev nD) : (dats m 0 c).arrAt 5 cfg0.N = regionOut m c :=
  (dats m 0 c).arrAt_eq_of_cover 5 (regionOut m c) (fun t _ => flushed_eq m c t) (covered)

end Cert.Ffn

end
-- ==== Proof.FfnHost.lean ====
/-
  The arrays the kernel region is launched on, and the program's result, as plain functions of the arguments.

  Before the region the program slices the first 16 features of every token and flattens the 16 × 4096 tokens into
  65536 rows; takes the cosine of θ, repeats it down the 64 rows of W1, multiplies W1 by it entry by entry and
  transposes the product to 16 × 64; and transposes W2 to 64 × 512. After the region it reshapes the 65536 × 512
  result back to 16 × 4096 × 512. Read at an entry:
    row b · 4096 + s, feature q of the flattened features is x(b, s, q);
    entry (q, f) of the scaled transposed first matrix is W1(f, q) · cos θ_q;
    entry (f, e) of the transposed second matrix is W2(e, f);
    entry (b, s, e) of the reshaped result is entry (b · 4096 + s, e) of the region's output.
-/
import proofs.«168409_j65481071405813_2_alg».proof.Proof.Gen.KernelIdeal.Frame
import proofs.«168409_j65481071405813_2_alg».proof.Proof.FfnSpec
import proofs.«168409_j65481071405813_2_alg».proof.Proof.LibRows
import Idealize.ShloMosaic.Lib.StableHlo.Run
import Idealize.ShloMosaic.Lib.Pipeline.Value
import Idealize.ShloMosaic.Lib.ValueLayout
import Idealize.ShloMosaic.PureOps.Ideal

noncomputable section

namespace Cert.Ffn

open Idealize.ShloMosaic Idealize.ShloMosaic.TcCoe Idealize.ShloMosaic.ValueIdx Idealize.SL.Sem
open Cert.KernelIdeal Cert.KernelIdeal.Gen Idealize.ShloMosaic.StableHlo

variable (m : (ℓ : Loc nD τ sig) → Buf (Elt Ideal) ℓ)

/-- The six argument arrays on core `c`, as arrays of extended reals. -/
abbrev argX (c : Dev nD) : FVec Ideal S16x4096x512 .f32 := m ((c : Thread nD τ).loc main_arg0)
abbrev argTheta (c : Dev nD) : FVec Ideal S16 .f32 := m ((c : Thread nD τ).loc main_arg1)
abbrev argW1 (c : Dev nD) : FVec Ideal S64x16 .f32 := m ((c : Thread nD τ).loc main_arg2)
abbrev argB1 (c : Dev nD) : FVec Ideal S64 .f32 := m ((c : Thread nD τ).loc main_arg3)
abbrev argW2 (c : Dev nD) : FVec Ideal S512x64 .f32 := m ((c : Thread nD τ).loc main_arg4)
abbrev argB2 (c : Dev nD) : FVec Ideal S512 .f32 := m ((c : Thread nD τ).loc main_arg5)

/-- The flattened features as the region finds them: the slice of the input, reshaped. -/
theorem features_eq (c : Dev nD) :
    (V m c main_v1 : S65536x16.Idx → EReal)
      = shapeCast S65536x16 (extractStridedSlice S16x4096x16 ![0, 0, 0] (argX m c)
          Facts₀.slices_S16x4096x512_S16x4096x16_0_0_0) Facts₀.shapeCasts_S16x4096x16_S65536x16 := by
  show StableHlo.after hostOps0 (fun b => m (c, b)) (Proc.devRef .tc main_v1) = _
  after_results <;> rfl

/-- The first weight matrix as the region finds it: W1 scaled by the repeated cos θ, transposed. -/
theorem first_eq (c : Dev nD) :
    (V m c main_v6 : S16x64.Idx → EReal)
      = transpose S16x64 [1, 0] (mulf (argW1 m c)
          (broadcastInDim S64x16 ![0, 1] Facts₀.bcast_S1x16_S64x16_0_1
            (broadcastInDim S1x16 ![1] Facts₀.bcast_S16_S1x16_1 (Host.cos (argTheta m c)))))
          Facts₀.transposes_S64x16_S16x64_1_0 := by
  show StableHlo.after hostOps0 (fun b => m (c, b)) (Proc.devRef .tc main_v6) = _
  after_results <;> rfl

/-- The second weight matrix as the region finds it: W2 transposed. -/
theorem second_eq (c : Dev nD) :
    (V m c main_v7 : S64x512.Idx → EReal)
      = transpose S64x512 [1, 0] (argW2 m c) Facts₀.transposes_S512x64_S64x512_1_0 := by
  show StableHlo.after hostOps0 (fun b => m (c, b)) (Proc.devRef .tc main_v7) = _
  after_results <;> rfl

/-- Row b · 4096 + s, feature q of the flattened features is feature q of token (b, s). -/
theorem features_apply (c : Dev nD) (b : Fin 16) (s : Fin 4096) (q : Fin 16) :
    (V m c main_v1 : S65536x16.Idx → EReal) (ix2 (tokenRow b s) q) = argX m c (ix3 b s (feat q)) := by
  rw [features_eq]
  rw [shapeCast_apply _ Facts₀.shapeCasts_S16x4096x16_S65536x16 (ix2 (tokenRow b s) q) (ix3 b s q) (by
    rw [Shape.rowMajor_val_two, Shape.rowMajor_val_three]
    show (b.val * 4096 + s.val) * 16 + q.val = (b.val * 4096 + s.val) * 16 + q.val
    rfl)]
  exact extractStridedSlice_apply ![0, 0, 0] _ Facts₀.slices_S16x4096x512_S16x4096x16_0_0_0 (ix3 b s q) (ix3 b s (feat q))
    (fun a => match a with
      | ⟨0, _⟩ => by show b.val = 0 + b.val; omega
      | ⟨1, _⟩ => by show s.val = 0 + s.val; omega
      | ⟨2, _⟩ => by show q.val = 0 + q.val; omega)

/-- Entry (q, f) of the first matrix as launched is W1(f, q) · cos θ_q. -/
theorem first_apply (c : Dev nD) (q : Fin 16) (f : Fin 64) :
    (V m c main_v6 : S16x64.Idx → EReal) (ix2 q f)
      = argW1 m c (ix2 f q) * Ideal.cos (argTheta m c (ix1 q)) := by
  rw [first_eq, transpose_ix2_apply, mulf_apply, Cert.LibRows.rowBroadcastInDim_apply]
  rfl

/-- Entry (f, e) of the second matrix as launched is W2(e, f). -/
theorem second_apply (c : Dev nD) (f : Fin 64) (e : Fin 512) :
    (V m c main_v7 : S64x512.Idx → EReal) (ix2 f e) = argW2 m c (ix2 e f) := by
  rw [second_eq, transpose_ix2_apply]

end Cert.Ffn

end
-- ==== Proof.FfnRun.lean ====
/-
  The idealized kernel program's run, with its result named.

  Every weakly fair execution terminates; the result array is the region's output array reshaped to [16, 4096, 512];
  the region's output is the two-layer map of the arrays the region was launched on (blocks module); those arrays are
  the flattened features, the scaled transposed first matrix and the transposed second matrix (host module). Entry
  (b, s, e) of the reshaped result is entry (b · 4096 + s, e) of the region's output, so by `rows_eq_ffn` the result is
  `ffn` of the six arguments, and the arguments end unchanged.
-/
import proofs.«168409_j65481071405813_2_alg».proof.Proof.FfnBlocks
import proofs.«168409_j65481071405813_2_alg».proof.Proof.FfnHost

set_option maxRecDepth 16384

noncomputable section

namespace Cert.Ffn

open Idealize.ShloMosaic Idealize.ShloMosaic.TcCoe Idealize.ShloMosaic.ValueIdx Idealize.SL.Sem
open Cert.KernelIdeal Cert.KernelIdeal.Gen Idealize.ShloMosaic.StableHlo

variable (m : (ℓ : Loc nD τ sig) → Buf (Elt Ideal) ℓ) (ρ : Dev nD → PrngReg)

/-- The program's result buffer after the run is the region's output array, reshaped. -/
theorem tail_eq (c : Dev nD) :
    (Pipeline.afterTail₀ cfgs (dats m) 0 (V0 m) [hostOps1] c main_v9 : S16x4096x512.Idx → EReal)
      = shapeCast S16x4096x512 ((dats m 0 c).arrAt 5 cfg0.N) Facts₀.shapeCasts_S65536x512_S16x4096x512 := by
  unfold Pipeline.afterTail₀
  show StableHlo.after hostOps1 _ (Proc.devRef .tc main_v9) = _
  after_results
  exact congrArg (fun A => shapeCast S16x4096x512 A Facts₀.shapeCasts_S65536x512_S16x4096x512)
    (Pipeline.withArrays_arr spec0 launch0.win.arr_inj c _ _ 5)

/-- The program's result is `ffn` of its six arguments. -/
theorem result_eq (c : Dev nD) :
    (Pipeline.afterTail₀ cfgs (dats m) 0 (V0 m) [hostOps1] c main_v9 : S16x4096x512.Idx → EReal)
      = ffn (argX m c) (argTheta m c) (argW1 m c) (argB1 m c) (argW2 m c) (argB2 m c) := by
  rw [tail_eq, region_final]
  funext i
  obtain ⟨b, s, e, rfl⟩ : ∃ (b : Fin 16) (s : Fin 4096) (e : Fin 512), i = ix3 b s e := ⟨i 0, i 1, i 2, eq_ix3 i⟩
  rw [shapeCast_apply _ Facts₀.shapeCasts_S65536x512_S16x4096x512 (ix3 b s e) (ix2 (tokenRow b s) e) (by
    rw [Shape.rowMajor_val_two, Shape.rowMajor_val_three]
    show (b.val * 4096 + s.val) * 512 + e.val = (b.val * 4096 + s.val) * 512 + e.val
    rfl)]
  show rows (V m c main_v1) (V m c main_v6) (V m c main_arg3) (V m c main_v7) (V m c main_arg5) (ix2 (tokenRow b s) e) = _
  rw [V_main_arg3, V_main_arg5]
  exact rows_eq_ffn _ _ _ _ _ _ _ _ _ (features_apply m c) (first_apply m c) (second_apply m c) b s e

/-- The idealized kernel program runs, ends with its result at `ffn` of its arguments, and leaves the arguments as they were. -/
theorem kernel_run : θ_run defs (onTc (τ := τ) (main (F := Ideal))) ⟨m, fun _ => 0, ρ⟩ fun r => ∀ c : Dev nD,
      r.2.mem ((c.tc : Thread nD τ).loc main_v9) = ffn (argX m c) (argTheta m c) (argW1 m c) (argB1 m c) (argW2 m c) (argB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).1 4).trans (((dats m 0 c).arrAt_in 4 rfl _).trans ((A_eq m c 4).trans (V_main_arg5 m c)))⟩)
    (run_main m ρ)

end Cert.Ffn

end
-- ==== Proof.FfnReference.lean ====
/-
  The reference program computes `Cert.Ffn.ffn`.

  The reference is the textbook chain on the whole [16, 4096, 512] input: slice the first 16 features, cosine, times
  cos θ repeated over the tokens, contraction with W1 over the 16 features, plus b1 repeated, maximum with zero,
  contraction with W2 over the 64 hidden units, plus b2 repeated. Read one operation at a time at an entry (b, s, e) this
  is the formula of `ffn` term by term; only the index bookkeeping of the broadcasts and contractions is proved here.
-/
import proofs.«168409_j65481071405813_2_alg».proof.Proof.Gen.ReferenceIdeal.Read
import proofs.«168409_j65481071405813_2_alg».proof.Proof.FfnSpec

noncomputable section

open scoped BigOperators

namespace Cert.Ffn

open Idealize.ShloMosaic Idealize.ShloMosaic.ValueIdx Cert.ReferenceIdeal Cert.ReferenceIdeal.Read

/-- The reference's hidden layer at token (b, s), unit f. -/
theorem reference_hidden (x : FVec Ideal S16x4096x512 .f32) (θ : FVec Ideal S16 .f32) (W1 : FVec Ideal S64x16 .f32)
    (b1 : FVec Ideal S64 .f32) (b : Fin 16) (s : Fin 4096) (f : Fin 64) :
    val_main_v10 (F := Ideal) x θ W1 b1 (ix3 b s f)
      = max ((∑ q : Fin 16, (Ideal.cos (x (ix3 b s (feat q))) * Ideal.cos (θ (ix1 q))) * W1 (ix2 f q)) + b1 (ix1 f)) zeroWord := by
  rw [val_main_v10_apply, val_main_v9_apply, val_main_v6_apply, val_main_v8_apply, val_main_v7_apply,
    val_main_call0_v0_apply, val_main_call0_cst_apply]
  have e1 : idx_main_v7 (idx_main_v8 (ix3 b s f)) = ix1 f :=
    funext fun a => Fin.ext (by match a with | ⟨0, _⟩ => rfl)
  rw [e1]
  show max ((∑ k : Fin 16, val_main_v5 (F := Ideal) x θ (lidx_main_v6 (ix3 b s f) k) * W1 (ridx_main_v6 (ix3 b s f) k))
      + b1 (ix1 f)) zeroWord = _
  refine congrArg (fun t => max (t + b1 (ix1 f)) zeroWord) (Finset.sum_congr rfl fun q _ => ?_)
  rw [val_main_v5_apply, val_main_v1_apply, val_main_v0_apply, val_main_v4_apply, val_main_v3_apply, val_main_v2_apply]
  have e2 : idx_main_v0 (lidx_main_v6 (ix3 b s f) q) = ix3 b s (feat q) :=
    funext fun a => Fin.ext (by match a with | ⟨0, _⟩ => rfl | ⟨1, _⟩ => rfl | ⟨2, _⟩ => rfl)
  have e3 : idx_main_v3 (idx_main_v4 (lidx_main_v6 (ix3 b s f) q)) = ix1 q :=
    funext fun a => Fin.ext (by match a with | ⟨0, _⟩ => rfl)
  have e4 : ridx_main_v6 (ix3 b s f) q = ix2 f q :=
    funext fun a => Fin.ext (by match a with | ⟨0, _⟩ => rfl | ⟨1, _⟩ => rfl)
  rw [e2, e3, e4]
  rfl

/-- The reference's result is `ffn` of its arguments. -/
theorem reference_eq (x : FVec Ideal S16x4096x512 .f32) (θ : FVec Ideal S16 .f32) (W1 : FVec Ideal S64x16 .f32)
    (b1 : FVec Ideal S64 .f32) (W2 : FVec Ideal S512x64 .f32) (b2 : FVec Ideal S512 .f32) :
    val_main_v14 (F := Ideal) x θ W1 b1 W2 b2 = ffn x θ W1 b1 W2 b2 := by
  funext i
  obtain ⟨b, s, e, rfl⟩ : ∃ (b : Fin 16) (s : Fin 4096) (e : Fin 512), i = ix3 b s e := ⟨i 0, i 1, i 2, eq_ix3 i⟩
  rw [val_main_v14_apply, val_main_v11_apply, val_main_v13_apply, val_main_v12_apply]
  have e1 : idx_main_v12 (idx_main_v13 (ix3 b s e)) = ix1 e :=
    funext fun a => Fin.ext (by match a with | ⟨0, _⟩ => rfl)
  rw [e1]
  unfold ffn
  show (∑ k : Fin 64, val_main_v10 (F := Ideal) x θ W1 b1 (lidx_main_v11 (ix3 b s e) k) * W2 (ridx_main_v11 (ix3 b s e) k))
      + b2 (ix1 e)
    = (∑ f : Fin 64, max ((∑ q : Fin 16, (Ideal.cos (x (ix3 b s (feat q))) * Ideal.cos (θ (ix1 q))) * W1 (ix2 f q))
      + b1 (ix1 f)) zeroWord * W2 (ix2 e f)) + b2 (ix1 e)
  refine congrArg (· + b2 (ix1 e)) (Finset.sum_congr rfl fun f _ => ?_)
  have e2 : lidx_main_v11 (ix3 b s e) f = ix3 b s f :=
    funext fun a => Fin.ext (by match a with | ⟨0, _⟩ => rfl | ⟨1, _⟩ => rfl | ⟨2, _⟩ => rfl)
  have e3 : ridx_main_v11 (ix3 b s e) f = ix2 e f :=
    funext fun a => Fin.ext (by match a with | ⟨0, _⟩ => rfl | ⟨1, _⟩ => rfl)
  rw [e2, e3, reference_hidden]

end Cert.Ffn

end
-- ==== Proof.lean ====
/-
  A token-wise network: for each of the 16 × 4096 tokens, the first 16 of its 512 features give 16 expectations
  cos x_q · cos θ_q; an affine layer to 64 hidden units, a rectifier and an affine layer to 512 outputs follow,

      out(b, s, e) = Σ_f max( Σ_q (cos x(b, s, q) · cos θ_q) · W1(f, q) + b1_f , 0 ) · W2(e, f) + b2_e .

  The kernel program slices and flattens the features to 65536 × 16, folds cos θ into W1 (scaled, transposed: 16 × 64),
  transposes W2 (64 × 512), and runs a grid of eight blocks of 8192 rows, each computing cos, the first product, bias,
  maximum with zero, the second product and bias; it reshapes the 65536 × 512 result back. The reference program applies
  the formula directly on the [16, 4096, 512] input. Over the extended reals a product into a zero accumulator and a host
  contraction are the same finite sum, a change of tiling changes nothing, and the scale cos θ_q moves from W1(f, q) to
  cos x(b, s, q) by commutativity and associativity of the product, which hold at the infinities too: the two results
  are equal for every input, and the precondition is not used for the values.

  Modules: FfnSpec (the formula, and the law joining the row form with the token form), FfnPayload (what one block
  stores), FfnBlocks (the eight blocks make the whole array), FfnHost (the arrays before the region, and the reshape
  after it, read at an entry), FfnRun (the kernel program's run with its result named), FfnReference (the reference
  computes the formula). The three frames are the generated ones; the idealization rewrote nothing, so `preserves` is
  trivial.
-/
import proofs.«168409_j65481071405813_2_alg».proof.Defs
import proofs.«168409_j65481071405813_2_alg».proof.Proof.Gen.Kernel
import proofs.«168409_j65481071405813_2_alg».proof.Proof.Gen.Kernel.Skeleton
import proofs.«168409_j65481071405813_2_alg».proof.Proof.Gen.Kernel.Launch
import proofs.«168409_j65481071405813_2_alg».proof.Proof.Gen.Kernel.Points
import proofs.«168409_j65481071405813_2_alg».proof.Proof.Gen.Kernel.Frame
import proofs.«168409_j65481071405813_2_alg».proof.Proof.Gen.KernelIdeal
import proofs.«168409_j65481071405813_2_alg».proof.Proof.Gen.KernelIdeal.Skeleton
import proofs.«168409_j65481071405813_2_alg».proof.Proof.Gen.KernelIdeal.Launch
import proofs.«168409_j65481071405813_2_alg».proof.Proof.Gen.KernelIdeal.Points
import proofs.«168409_j65481071405813_2_alg».proof.Proof.Gen.KernelIdeal.Frame
import proofs.«168409_j65481071405813_2_alg».proof.Proof.Gen.ReferenceIdeal
import proofs.«168409_j65481071405813_2_alg».proof.Proof.Gen.Pre_finite_inputs
import Idealize.ShloMosaic.Adequacy
import Idealize.ShloMosaic.Init
import proofs.«168409_j65481071405813_2_alg».proof.Proof.Gen.ReferenceIdeal.Run
import proofs.«168409_j65481071405813_2_alg».proof.Proof.Gen.ReferenceIdeal.Read
import proofs.«168409_j65481071405813_2_alg».proof.Proof.FfnRun
import proofs.«168409_j65481071405813_2_alg».proof.Proof.FfnReference

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference program's run, with the result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the network's formula of the same arguments. -/
theorem algebraic : Cert.algebraic_KernelIdeal_ReferenceIdeal := by
  intro m ρ m' ρ' _ hagree
  refine ⟨fun c => Cert.Ffn.ffn (Cert.Ffn.argX m c) (Cert.Ffn.argTheta m c) (Cert.Ffn.argW1 m c) (Cert.Ffn.argB1 m c)
    (Cert.Ffn.argW2 m c) (Cert.Ffn.argB2 m c), Cert.Ffn.kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, Cert.Ffn.reference_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
